-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024 : Shape := ⟨1, ![1024]⟩
abbrev S1024x4096 : Shape := ⟨2, ![1024, 4096]⟩
abbrev S4096 : Shape := ⟨1, ![4096]⟩
abbrev S1 : Shape := ⟨1, ![1]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S4096 .f32) (main_arg5 : FVec F S1 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8x2048x1024 .f32) (main_arg1 : FVec F S1024 .f32) (main_arg2 : FVec F S1024 .f32) (main_arg3 : FVec F S1024x4096 .f32) (main_arg4 : FVec F S4096 .f32) (main_arg5 : FVec F S1 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_v13 main_v16
-- ==== Kernel.lean ====
abbrev S8x2048x1024 : Shape := ⟨3, ![8, 2048, 1024]⟩
abbrev S1024 : Shape := ⟨1, ![1024]⟩
abbrev S1024x4096 : Shape := ⟨2, ![1024, 4096]⟩
abbrev S4096 : Shape := ⟨1, ![4096]⟩
abbrev S1 : Shape := ⟨1, ![1]⟩
abbrev S16384x1024 : Shape := ⟨2, ![16384, 1024]⟩
abbrev S1x1024 : Shape := ⟨2, ![1, 1024]⟩
abbrev S1x4096 : Shape := ⟨2, ![1, 4096]⟩
abbrev S16384x4096 : Shape := ⟨2, ![16384, 4096]⟩
abbrev S1024x1024 : Shape := ⟨2, ![1024, 1024]⟩
abbrev S1024x1 : Shape := ⟨2, ![1024, 1]⟩
abbrev S1x1 : Shape := ⟨2, ![1, 1]⟩
abbrev S8x2048x4096 : Shape := ⟨3, ![8, 2048, 4096]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096, .f32⟩
  | .hbm, ⟨5, _⟩ => ⟨S1, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S1x4096, .f32⟩
  | .hbm, ⟨10, _⟩ => ⟨S1024x4096, .bf16⟩
  | .hbm, ⟨11, _⟩ => ⟨S16384x4096, .f32⟩
  | .hbm, ⟨12, _⟩ => ⟨S8x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1, .f32⟩
  | .local _ .vmem, ⟨9, _⟩ => ⟨S1024x1024, .f32⟩
  | .local _ .vmem, ⟨10, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S8x2048x1024_S16384x1024 : S8x2048x1024.ShapeCasts S16384x1024
  shapeCasts_S1024_S1x1024 : S1024.ShapeCasts S1x1024
  shapeCasts_S4096_S1x4096 : S4096.ShapeCasts S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1_S1_0 : ∀ a, (![0] : Fin 1 → Nat) a + S1.size a ≤ S1.size a
  h_S1 : 0 < S1.numel
  shapeCasts_S1_S1x1 : S1.ShapeCasts S1x1
  broadcasts_S1x1_S1024x1024 : S1x1.Broadcasts S1024x1024
  shapeCasts_S16384x4096_S8x2048x4096 : S16384x4096.ShapeCasts S8x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x4096.size a
  hwx0_3 : ∀ i : grid0.Coords, EltTy.bits .bf16 = 32 ∨ (Rect.block (s := S1024x4096) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S16384x4096.size a
  hwx0_6 : ∀ i : grid0.Coords, EltTy.bits .f32 = 32 ∨ (Rect.block (s := S16384x4096) S1024x1024.size (cc0_transform_6 i) (hinb0_6 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024 : Shape := ⟨1, ![1024]⟩
abbrev S1024x4096 : Shape := ⟨2, ![1024, 4096]⟩
abbrev S4096 : Shape := ⟨1, ![4096]⟩
abbrev S1 : Shape := ⟨1, ![1]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S1x1x4096 : Shape := ⟨3, ![1, 1, 4096]⟩
abbrev S1x1x1 : Shape := ⟨3, ![1, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096, .f32⟩
  | .hbm, ⟨5, _⟩ => ⟨S1, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S8x2048x4096, .f32⟩
  | .hbm, ⟨36, _⟩ => ⟨S1x1x4096, .f32⟩
  | .hbm, ⟨37, _⟩ => ⟨S8x2048x4096, .f32⟩
  | .hbm, ⟨38, _⟩ => ⟨S8x2048x4096, .f32⟩
  | .hbm, ⟨39, _⟩ => ⟨S1x1x1, .f32⟩
  | .hbm, ⟨40, _⟩ => ⟨S8x2048x4096, .f32⟩
  | .hbm, ⟨41, _⟩ => ⟨S8x2048x4096, .f32⟩
  | .hbm, ⟨42, _⟩ => ⟨S_, .f32⟩
  | .hbm, ⟨43, _⟩ => ⟨S8x2048x4096, .f32⟩
  | .hbm, ⟨44, _⟩ => ⟨S8x2048x4096, .f32⟩
  | .hbm, ⟨45, _⟩ => ⟨S8x2048x4096, .f32⟩
  | .hbm, ⟨46, _⟩ => ⟨S_, .f32⟩
  | .hbm, ⟨47, _⟩ => ⟨S8x2048x4096, .f32⟩
  | .hbm, ⟨48, _⟩ => ⟨S8x2048x4096, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S1_S1x1x1_2 : S1.BroadcastsInDim S1x1x1 (![2] : Fin 1 → Fin S1x1x1.rank)
  bcast_S1x1x1_S8x2048x4096_0_1_2 : S1x1x1.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x1024_S1024x4096_S8x2048x4096_2_0_01_1_n_n_wf : DotDims.WF S8x2048x1024 S1024x4096 S8x2048x4096 [2] [0] [0, 1] [1] [] []

variable [Facts₀]

def dot_S8x2048x1024_S1024x4096_S8x2048x4096_2_0_01_1_n_n : DotDims S8x2048x1024 S1024x4096 S8x2048x4096 where
  lhsContracting := [2]
  rhsContracting := [0]
  lhsNonContracting := [0, 1]
  rhsNonContracting := [1]
  lhsBatch := []
  rhsBatch := []
  wf := dot_S8x2048x1024_S1024x4096_S8x2048x4096_2_0_01_1_n_n_wf

class Facts : Prop extends Facts₀ where

variable [Facts]
-- ==== Proof.Spec.lean ====
/-
  The function both programs compute, on extended reals.

  A row z of 1024 features is normalised — its mean m = (Σ z)/1024 subtracted, scaled by the reciprocal square
  root of its variance v = (Σ (z − m)²)/1024 plus a small constant, multiplied by the weights γ and shifted by β —
  then contracted with a column w of the weight matrix, shifted by a bias b, multiplied by a scalar s, and squashed
  as tanh(x / 3) · 3.  The constants 1024, the small constant and 3 are kept as the single-precision words both
  programs write, so they are never evaluated.

  `out` is that formula for the entry (a, r, n) of an [8, 2048, 4096] result of an [8, 2048, 1024] input;
  `outRows` is the same for entry (p, n) of the [16384, 4096] result of the input with its two leading axes merged
  into 16384 rows and the vectors γ, β, b written as one-row matrices.
-/
import Idealize.ShloMosaic.PureOps.Ideal
import Idealize.ShloMosaic.Lib.ValueIdx

noncomputable section

open scoped BigOperators

namespace Cert.Adapter

open Idealize.ShloMosaic Idealize.ShloMosaic.ValueIdx

/-- The row length 1024 as a single-precision word. -/
abbrev rowLen : EReal := Ideal.ofBits .f32 0x44800000#32
/-- The small constant added to the variance, as a single-precision word. -/
abbrev eps : EReal := Ideal.ofBits .f32 0x3727C5AC#32
/-- The clamp 3 as a single-precision word. -/
abbrev clamp : EReal := Ideal.ofBits .f32 0x40400000#32

/-- The mean of a row. -/
def mean (z : Fin 1024 → EReal) : EReal := Ideal.div (∑ k, z k) rowLen

/-- The variance of a row: the mean of the squared deviations from its mean. -/
def variance (z : Fin 1024 → EReal) : EReal := Ideal.div (∑ k, (z k - mean z) * (z k - mean z)) rowLen

/-- Feature k of the normalised row. -/
def normed (z γ β : Fin 1024 → EReal) (k : Fin 1024) : EReal :=
  (z k - mean z) * Ideal.rsqrt (variance z + eps) * γ k + β k

/-- One entry of the result: the normalised row against a column w, bias b, scale s, squashed. -/
def entry (z γ β w : Fin 1024 → EReal) (b s : EReal) : EReal :=
  Ideal.tanh (Ideal.div ((∑ k, normed z γ β k * w k + b) * s) clamp) * clamp

/-- The result on [8, 2048, 4096]. -/
def out (z : (⟨3, ![8, 2048, 1024]⟩ : Shape).Idx → EReal) (γ β : (⟨1, ![1024]⟩ : Shape).Idx → EReal)
    (W : (⟨2, ![1024, 4096]⟩ : Shape).Idx → EReal) (b : (⟨1, ![4096]⟩ : Shape).Idx → EReal)
    (s : (⟨1, ![1]⟩ : Shape).Idx → EReal) : (⟨3, ![8, 2048, 4096]⟩ : Shape).Idx → EReal := fun i =>
  entry (fun k => z (ix3 (⟨(i 0).val, (i 0).isLt⟩ : Fin 8) (⟨(i 1).val, (i 1).isLt⟩ : Fin 2048) k))
    (fun k => γ (ix1 k)) (fun k => β (ix1 k))
    (fun k => W (ix2 k (⟨(i 2).val, (i 2).isLt⟩ : Fin 4096)))
    (b (ix1 (⟨(i 2).val, (i 2).isLt⟩ : Fin 4096))) (s (ix1 (0 : Fin 1)))

theorem out_ix3 (z : (⟨3, ![8, 2048, 1024]⟩ : Shape).Idx → EReal) (γ β : (⟨1, ![1024]⟩ : Shape).Idx → EReal)
    (W : (⟨2, ![1024, 4096]⟩ : Shape).Idx → EReal) (b : (⟨1, ![4096]⟩ : Shape).Idx → EReal)
    (s : (⟨1, ![1]⟩ : Shape).Idx → EReal) (a : Fin 8) (r : Fin 2048) (n : Fin 4096) :
    out z γ β W b s (ix3 a r n)
      = entry (fun k => z (ix3 a r k)) (fun k => γ (ix1 k)) (fun k => β (ix1 k)) (fun k => W (ix2 k n))
          (b (ix1 n)) (s (ix1 (0 : Fin 1))) := rfl

/-- The result on the merged rows, [16384, 4096]. -/
def outRows (z : (⟨2, ![16384, 1024]⟩ : Shape).Idx → EReal) (γ β : (⟨2, ![1, 1024]⟩ : Shape).Idx → EReal)
    (W : (⟨2, ![1024, 4096]⟩ : Shape).Idx → EReal) (b : (⟨2, ![1, 4096]⟩ : Shape).Idx → EReal)
    (s : (⟨1, ![1]⟩ : Shape).Idx → EReal) : (⟨2, ![16384, 4096]⟩ : Shape).Idx → EReal := fun i =>
  entry (fun k => z (ix2 (⟨(i 0).val, (i 0).isLt⟩ : Fin 16384) k))
    (fun k => γ (ix2 (0 : Fin 1) k)) (fun k => β (ix2 (0 : Fin 1) k))
    (fun k => W (ix2 k (⟨(i 1).val, (i 1).isLt⟩ : Fin 4096)))
    (b (ix2 (0 : Fin 1) (⟨(i 1).val, (i 1).isLt⟩ : Fin 4096))) (s (ix1 (0 : Fin 1)))

theorem outRows_ix2 (z : (⟨2, ![16384, 1024]⟩ : Shape).Idx → EReal) (γ β : (⟨2, ![1, 1024]⟩ : Shape).Idx → EReal)
    (W : (⟨2, ![1024, 4096]⟩ : Shape).Idx → EReal) (b : (⟨2, ![1, 4096]⟩ : Shape).Idx → EReal)
    (s : (⟨1, ![1]⟩ : Shape).Idx → EReal) (p : Fin 16384) (n : Fin 4096) :
    outRows z γ β W b s (ix2 p n)
      = entry (fun k => z (ix2 p k)) (fun k => γ (ix2 (0 : Fin 1) k)) (fun k => β (ix2 (0 : Fin 1) k))
          (fun k => W (ix2 k n)) (b (ix2 (0 : Fin 1) n)) (s (ix1 (0 : Fin 1))) := rfl

end Cert.Adapter

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibMatmulRows.lean ====
/-
  A matrix product into a zero accumulator, read at an index at the ideal values, for operands of any float formats.

  At the ideal values a float is an extended real whatever its format, so a product whose operands were first rounded to a
  narrower format is still the plain sum over the contraction coordinate: for any dimension numbers that contract the
  left operand's columns with the right operand's rows, [n, K] × [K, F] at (p, f) is the sum over k of left (p, k) times
  right (k, f).
-/
import Idealize.ShloMosaic.PureOps.Ideal
import Idealize.ShloMosaic.PureOps.Ideal.Laws
import Idealize.ShloMosaic.Lib.ValueIdx

noncomputable section

open scoped BigOperators

namespace Cert.LibMatmulRows

open Idealize.ShloMosaic Idealize.ShloMosaic.ValueIdx

/-- At the ideal values a matrix product [n, K] × [K, F] into the zero accumulator reads, at (p, f), the sum over the
    contraction coordinate k of left (p, k) times right (k, f), whatever the operands' float formats — for any dimension
    numbers with one contracted axis of extent K whose operand indices are the rows of the left operand and the columns
    of the right one (the four coordinate facts, which compute on a literal record). -/
theorem matmul_rows_apply {n K F : ℕ} {φ₁ φ₂ : FTy} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ φ₁) (r : FVec Ideal ⟨2, ![K, F]⟩ φ₂)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibMatmulRows

end
-- ==== Proof.LibUnitSplat.lean ====
/-
  A one-entry matrix [1, 1] broadcast to [a, b], read at an index: every entry is the one entry. General in the
  extents and in the element type.
-/
import Idealize.ShloMosaic.Lib.Pipeline.Value
import Idealize.ShloMosaic.Lib.ValueIdx

noncomputable section

namespace Cert.LibUnitSplat

open Idealize.ShloMosaic Idealize.ShloMosaic.ValueIdx

variable {α : Type}

/-- A `[1, 1]` array broadcast to `[a, b]` reads, at `(p, c)`, the operand's one entry. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibUnitSplat

end
-- ==== Proof.Payload.lean ====
/-
  What the kernel's body stores, entry by entry.

  The body works on a block of 1024 rows of the input, the one-row matrices γ and β, a block of 1024 columns of the
  weight matrix, the matching 1024 entries of the bias and the scalar.  Its arithmetic is cut into stages — the column
  of row means, the centred block, the column of variances, the column of scale factors, the normalised block, the
  contraction plus bias times scale — and each stage is read at an index (p, ·): everything a row p of the result
  depends on is row p of the input block.  A change of float format is the identity on extended reals, so the
  rounding of the normalised block and of the weights before the contraction disappears.
-/
import proofs.«127740_j20701742366997_1_alg».proof.Proof.Gen.KernelIdeal.Skeleton
import proofs.«127740_j20701742366997_1_alg».proof.Proof.Spec
import proofs.«127740_j20701742366997_1_alg».proof.Proof.LibKeepdims
import proofs.«127740_j20701742366997_1_alg».proof.Proof.LibRowReduce
import proofs.«127740_j20701742366997_1_alg».proof.Proof.LibMatmulRows
import proofs.«127740_j20701742366997_1_alg».proof.Proof.LibUnitSplat
import Idealize.ShloMosaic.Lib.ValueLayout
import Idealize.ShloMosaic.Lib.Pipeline.Value

noncomputable section

open scoped BigOperators

namespace Cert.KernelIdeal.Body

open Cert.KernelIdeal Cert.KernelIdeal.Gen Cert.Adapter Idealize.ShloMosaic Idealize.ShloMosaic.ValueIdx

/-! ## The stages -/

variable (x0 : FVec Ideal S1024x1024 .f32)

/-- The sum of row p of a block. -/
theorem rowSum (x : FVec Ideal S1024x1024 .f32) (p : Fin 1024) :
    multiReduction .add [1] S1024 x 0x00000000#32 reduces_S1024x1024_S1024 (.inl rfl) rfl (ix1 p)
      = ∑ k : Fin 1024, x (ix2 p k) :=
  Cert.LibRowReduce.multiReduction_add_row x 0x00000000#32 reduces_S1024x1024_S1024 (.inl rfl) rfl p

/-- The column of row means. -/
def meanCol : FVec Ideal S1024x1 .f32 :=
  divf (shapeCast S1024x1 (multiReduction .add [1] S1024 (shapeCast S1024x1024 x0 shapeCasts_S1024x1024_S1024x1024)
    0x00000000#32 reduces_S1024x1024_S1024 (.inl rfl) rfl) shapeCasts_S1024_S1024x1)
    (broadcast S1024x1 (Scalar.ofBits .f32 0x44800000#32))

/-- The block with each row's mean subtracted. -/
def centred : FVec Ideal S1024x1024 .f32 :=
  subf (shapeCast S1024x1024 x0 shapeCasts_S1024x1024_S1024x1024)
    (broadcastTo S1024x1024 (meanCol x0) broadcasts_S1024x1_S1024x1024)

/-- The column of row variances. -/
def varCol : FVec Ideal S1024x1 .f32 :=
  divf (shapeCast S1024x1 (multiReduction .add [1] S1024 (mulf (centred x0) (centred x0))
    0x00000000#32 reduces_S1024x1024_S1024 (.inl rfl) rfl) shapeCasts_S1024_S1024x1)
    (broadcast S1024x1 (Scalar.ofBits .f32 0x44800000#32))

/-- The column of scale factors. -/
def scaleCol : FVec Ideal S1024x1 .f32 :=
  rsqrt (addf (varCol x0) (broadcast S1024x1 (Scalar.ofBits .f32 0x3727C5AC#32)))

variable (x1 x2 : FVec Ideal S1x1024 .f32)

/-- The normalised block. -/
def normBlock : FVec Ideal S1024x1024 .f32 :=
  addf (mulf (mulf (centred x0) (broadcastTo S1024x1024 (scaleCol x0) broadcasts_S1024x1_S1024x1024))
      (broadcastTo S1024x1024 (shapeCast S1x1024 x1 shapeCasts_S1x1024_S1x1024) broadcasts_S1x1024_S1024x1024))
    (broadcastTo S1024x1024 (shapeCast S1x1024 x2 shapeCasts_S1x1024_S1x1024) broadcasts_S1x1024_S1024x1024)

variable (x3 : FVec Ideal S1024x1024 .bf16) (x4 : FVec Ideal S1x1024 .f32) (x5 : FVec Ideal S1 .f32)

/-- The contraction with the weight block, plus the bias, times the scalar. -/
def preact : FVec Ideal S1024x1024 .f32 :=
  mulf (addf (matmul dot_S1024x1024_S1024x1024_S1024x1024_1_0_0_1_n_n none
        (truncf .bf16 (normBlock x0 x1 x2) bitsLt_bf16_f32)
        (shapeCast S1024x1024 x3 shapeCasts_S1024x1024_S1024x1024) (constant S1024x1024 .f32 0x00000000#32))
      (broadcastTo S1024x1024 (shapeCast S1x1024 x4 shapeCasts_S1x1024_S1x1024) broadcasts_S1x1024_S1024x1024))
    (broadcastTo S1024x1024 (shapeCast S1x1 x5 shapeCasts_S1_S1x1) broadcasts_S1x1_S1024x1024)

/-- The body's value before the squashing is the last stage. -/
theorem pay2_eq : k0_pay2 x0 x1 x2 x3 x4 x5 = preact x0 x1 x2 x3 x4 x5 := rfl

/-! ## The stages at an index -/

theorem meanCol_apply (p : Fin 1024) (u : Fin 1) : meanCol x0 (ix2 p u) = mean (fun k => x0 (ix2 p k)) := by
  unfold meanCol
  rw [divf_apply, Cert.LibKeepdims.shapeCast_a_a1_apply, rowSum, shapeCast_self]
  rfl

theorem centred_apply (p k : Fin 1024) : centred x0 (ix2 p k) = x0 (ix2 p k) - mean (fun k => x0 (ix2 p k)) := by
  unfold centred
  rw [subf_apply, shapeCast_self, Cert.LibKeepdims.broadcastTo_a1_ab_apply, meanCol_apply]

theorem varCol_apply (p : Fin 1024) (u : Fin 1) : varCol x0 (ix2 p u) = variance (fun k => x0 (ix2 p k)) := by
  unfold varCol
  rw [divf_apply, Cert.LibKeepdims.shapeCast_a_a1_apply, rowSum]
  simp only [mulf_apply, centred_apply]
  rfl

theorem scaleCol_apply (p : Fin 1024) (u : Fin 1) :
    scaleCol x0 (ix2 p u) = Ideal.rsqrt (variance (fun k => x0 (ix2 p k)) + eps) := by
  unfold scaleCol
  show Ideal.rsqrt (varCol x0 (ix2 p u) + _) = _
  rw [varCol_apply]
  rfl

theorem normBlock_apply (p k : Fin 1024) :
    normBlock x0 x1 x2 (ix2 p k)
      = normed (fun k => x0 (ix2 p k)) (fun k => x1 (ix2 (0 : Fin 1) k)) (fun k => x2 (ix2 (0 : Fin 1) k)) k := by
  unfold normBlock
  rw [addf_apply, mulf_apply, mulf_apply, centred_apply, Cert.LibKeepdims.broadcastTo_a1_ab_apply, scaleCol_apply,
    broadcastTo_1b_ab_apply, shapeCast_self, broadcastTo_1b_ab_apply, shapeCast_self]
  rfl

/-! ## The contraction: the record's operand indices -/

theorem dot_l0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem dot_l1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem dot_r0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem dot_r1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The block product into the zero accumulator is the sum over the 1024 features. -/
theorem matmul_apply (l : FVec Ideal S1024x1024 .bf16) (r : FVec Ideal S1024x1024 .bf16) (p q : Fin 1024) :
    matmul dot_S1024x1024_S1024x1024_S1024x1024_1_0_0_1_n_n none l r (constant S1024x1024 .f32 0x00000000#32) (ix2 p q)
      = ∑ k : Fin 1024, l (ix2 p k) * r (ix2 k q) :=
  Cert.LibMatmulRows.matmul_rows_apply dot_S1024x1024_S1024x1024_S1024x1024_1_0_0_1_n_n rfl rfl dot_l0 dot_l1 dot_r0 dot_r1
    none l r p q

theorem preact_apply (p q : Fin 1024) :
    preact x0 x1 x2 x3 x4 x5 (ix2 p q)
      = (∑ k, normed (fun k => x0 (ix2 p k)) (fun k => x1 (ix2 (0 : Fin 1) k)) (fun k => x2 (ix2 (0 : Fin 1) k)) k
            * x3 (ix2 k q) + x4 (ix2 (0 : Fin 1) q)) * x5 (ix1 (0 : Fin 1)) := by
  unfold preact
  rw [mulf_apply, addf_apply, matmul_apply, shapeCast_self, broadcastTo_1b_ab_apply, shapeCast_self,
    Cert.LibUnitSplat.broadcastTo_11_ab_apply, shapeCast_a_1a_apply]
  simp only [truncf_apply, normBlock_apply]

/-- THE BODY'S STORE at (p, q): the formula's entry for row p of the input block and column q of the weight block. -/
theorem pay_apply (p q : Fin 1024) :
    k0_pay1 (F := Ideal) (k0_pay2 (F := Ideal) x0 x1 x2 x3 x4 x5) (Scalar.ofBits .f32 0x40400000#32) (ix2 p q)
      = entry (fun k => x0 (ix2 p k)) (fun k => x1 (ix2 (0 : Fin 1) k)) (fun k => x2 (ix2 (0 : Fin 1) k))
          (fun k => x3 (ix2 k q)) (x4 (ix2 (0 : Fin 1) q)) (x5 (ix1 (0 : Fin 1))) := by
  show Ideal.tanh (Ideal.div (k0_pay2 (F := Ideal) x0 x1 x2 x3 x4 x5 (ix2 p q)) clamp) * clamp = _
  rw [pay2_eq, preact_apply]
  rfl

/-- The same against arrays: if the blocks are pieces of six arrays — row p of the input block is row P of a
    [16384, 1024] matrix, column q of the weight block is column Q of a [1024, 4096] matrix, entry q of the bias block is
    entry Q of a [1, 4096] row, and γ, β and the scalar are read whole — then the body's store at (p, q) is entry (P, Q)
    of `outRows` of those arrays. -/
theorem point_eq (X0 : S16384x1024.Idx → EReal) (G1 G2 : S1x1024.Idx → EReal) (X3 : S1024x4096.Idx → EReal)
    (X4 : S1x4096.Idx → EReal) (X5 : S1.Idx → EReal) (P : Fin 16384) (Q : Fin 4096) (p q : Fin 1024)
    (h0 : ∀ k : Fin 1024, x0 (ix2 p k) = X0 (ix2 P k))
    (h1 : ∀ k : Fin 1024, x1 (ix2 (0 : Fin 1) k) = G1 (ix2 (0 : Fin 1) k))
    (h2 : ∀ k : Fin 1024, x2 (ix2 (0 : Fin 1) k) = G2 (ix2 (0 : Fin 1) k))
    (h3 : ∀ k : Fin 1024, x3 (ix2 k q) = X3 (ix2 k Q))
    (h4 : x4 (ix2 (0 : Fin 1) q) = X4 (ix2 (0 : Fin 1) Q))
    (h5 : x5 (ix1 (0 : Fin 1)) = X5 (ix1 (0 : Fin 1))) :
    k0_pay1 (F := Ideal) (k0_pay2 (F := Ideal) x0 x1 x2 x3 x4 x5) (Scalar.ofBits .f32 0x40400000#32) (ix2 p q)
      = outRows X0 G1 G2 X3 X4 X5 (ix2 P Q) := by
  rw [pay_apply, outRows_ix2]
  simp only [h0, h1, h2, h3, h4, h5]

end Cert.KernelIdeal.Body

end
-- ==== Proof.Blocks.lean ====
/-
  From the blocks to the array the region leaves.

  The grid has 16 × 4 points; point (i, j) works on rows 1024·i … 1024·i + 1023 of the merged input, on columns
  1024·j … 1024·j + 1023 of the weight matrix and of the bias row, on γ, β and the scalar whole, and writes block (i, j)
  of the [16384, 4096] result.  So the entry (p, q) the body stores at that point is entry (1024·i + p, 1024·j + q) of
  `outRows` of the six arrays as the region finds them, the 64 blocks tile the result, and the result array ends
  holding `outRows` of those arrays.
-/
import proofs.«127740_j20701742366997_1_alg».proof.Proof.Gen.KernelIdeal.Frame
import proofs.«127740_j20701742366997_1_alg».proof.Proof.Payload
import Idealize.ShloMosaic.Lib.Pipeline.Value

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.Adapter Idealize.ShloMosaic.ValueIdx

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The result on the merged rows, of the six arrays as the region finds them. -/
abbrev rows (c : Dev nD) : S16384x4096.Idx → EReal :=
  outRows (V m c main_v0 : S16384x1024.Idx → Elt Ideal .f32) (V m c main_v1 : S1x1024.Idx → Elt Ideal .f32)
    (V m c main_v2 : S1x1024.Idx → Elt Ideal .f32) (V m c main_v4 : S1024x4096.Idx → Elt Ideal .bf16)
    (V m c main_v3 : S1x4096.Idx → Elt Ideal .f32) (V m c main_arg5 : S1.Idx → Elt Ideal .f32)

/-- The printed index maps, decided over the grid: the input rows move with the result's row block, the weight and bias
    columns with its column block, the other windows stay at block 0, and the result's block indices are in range. -/
theorem idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 1) = 0
    ∧ win0_6.index t (0 : Fin 2) ≤ 15 ∧ win0_6.index t (1 : Fin 2) ≤ 3 :=
  (by decide +kernel : ∀ t : Fin grid0.N, _)

/-- Every block of the result is some point's. -/
theorem idx_onto : ∀ (q0 : Fin 16) (q1 : Fin 4), ∃ t : Fin cfg0.N, win0_6.index t = ![q0.val, q1.val] :=
  (by decide +kernel : ∀ (q0 : Fin 16) (q1 : Fin 4), ∃ t : Fin grid0.N, win0_6.index t = ![q0.val, q1.val])

/-! ## Each input block as a piece of its array -/

/-- Row p of the input block is row 1024·i + p of the merged input. -/
theorem blk0 (c : Dev nD) (t : Fin cfg0.N) (p k : Fin 1024) (P : Fin 16384)
    (hP : P.val = win0_6.index t (0 : Fin 2) * 1024 + p.val) :
    (iblk m c 0 t : Vec Ideal S1024x1024 .f32) (ix2 p k)
      = (V m c main_v0 : S16384x1024.Idx → Elt Ideal .f32) (ix2 P k) := by
  obtain ⟨e0, e1, -⟩ := idx_facts t
  unfold iblk
  rw [View.read_apply]
  show (V m c main_v0 : S16384x1024.Idx → Elt Ideal .f32) _ = _
  refine congrArg (V m c main_v0 : S16384x1024.Idx → Elt Ideal .f32) (funext fun a => Fin.ext ?_)
  match a with
  | ⟨0, _⟩ => show win0_0.index t (0 : Fin 2) * 1024 + 1 * p.val = P.val; omega
  | ⟨1, _⟩ => show win0_0.index t (1 : Fin 2) * 1024 + 1 * k.val = k.val; omega

/-- The γ block is γ's one row. -/
theorem blk1 (c : Dev nD) (t : Fin cfg0.N) (k : Fin 1024) :
    (iblk m c 1 t : Vec Ideal S1x1024 .f32) (ix2 (0 : Fin 1) k)
      = (V m c main_v1 : S1x1024.Idx → Elt Ideal .f32) (ix2 (0 : Fin 1) k) := by
  obtain ⟨-, -, e0, e1, -⟩ := idx_facts t
  unfold iblk
  rw [View.read_apply]
  show (V m c main_v1 : S1x1024.Idx → Elt Ideal .f32) _ = _
  refine congrArg (V m c main_v1 : S1x1024.Idx → Elt Ideal .f32) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-- The β block is β's one row. -/
theorem blk2 (c : Dev nD) (t : Fin cfg0.N) (k : Fin 1024) :
    (iblk m c 2 t : Vec Ideal S1x1024 .f32) (ix2 (0 : Fin 1) k)
      = (V m c main_v2 : S1x1024.Idx → Elt Ideal .f32) (ix2 (0 : Fin 1) k) := by
  obtain ⟨-, -, -, -, e0, e1, -⟩ := idx_facts t
  unfold iblk
  rw [View.read_apply]
  show (V m c main_v2 : S1x1024.Idx → Elt Ideal .f32) _ = _
  refine congrArg (V m c main_v2 : S1x1024.Idx → Elt Ideal .f32) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

/-- Column q of the weight block is column 1024·j + q of the weight matrix. -/
theorem blk3 (c : Dev nD) (t : Fin cfg0.N) (k q : Fin 1024) (Q : Fin 4096)
    (hQ : Q.val = win0_6.index t (1 : Fin 2) * 1024 + q.val) :
    (iblk m c 3 t : Vec Ideal S1024x1024 .bf16) (ix2 k q)
      = (V m c main_v4 : S1024x4096.Idx → Elt Ideal .bf16) (ix2 k Q) := by
  obtain ⟨-, -, -, -, -, -, e0, e1, -⟩ := idx_facts t
  unfold iblk
  rw [View.read_apply]
  show (V m c main_v4 : S1024x4096.Idx → Elt Ideal .bf16) _ = _
  refine congrArg (V m c main_v4 : S1024x4096.Idx → Elt Ideal .bf16) (funext fun a => Fin.ext ?_)
  match a with
  | ⟨0, _⟩ => show win0_3.index t (0 : Fin 2) * 1024 + 1 * k.val = k.val; omega
  | ⟨1, _⟩ => show win0_3.index t (1 : Fin 2) * 1024 + 1 * q.val = Q.val; omega

/-- Entry q of the bias block is entry 1024·j + q of the bias row. -/
theorem blk4 (c : Dev nD) (t : Fin cfg0.N) (q : Fin 1024) (Q : Fin 4096)
    (hQ : Q.val = win0_6.index t (1 : Fin 2) * 1024 + q.val) :
    (iblk m c 4 t : Vec Ideal S1x1024 .f32) (ix2 (0 : Fin 1) q)
      = (V m c main_v3 : S1x4096.Idx → Elt Ideal .f32) (ix2 (0 : Fin 1) Q) := by
  obtain ⟨-, -, -, -, -, -, -, -, e0, e1, -⟩ := idx_facts t
  unfold iblk
  rw [View.read_apply]
  show (V m c main_v3 : S1x4096.Idx → Elt Ideal .f32) _ = _
  refine congrArg (V m c main_v3 : S1x4096.Idx → Elt Ideal .f32) (funext fun a => Fin.ext ?_)
  match a with
  | ⟨0, _⟩ => show win0_4.index t (0 : Fin 2) * 1 + 1 * 0 = 0; omega
  | ⟨1, _⟩ => show win0_4.index t (1 : Fin 2) * 1024 + 1 * q.val = Q.val; omega

/-- The scalar's block is the scalar. -/
theorem blk5 (c : Dev nD) (t : Fin cfg0.N) :
    (iblk m c 5 t : Vec Ideal S1 .f32) (ix1 (0 : Fin 1))
      = (V m c main_arg5 : S1.Idx → Elt Ideal .f32) (ix1 (0 : Fin 1)) := by
  obtain ⟨-, -, -, -, -, -, -, -, -, -, e0, -⟩ := idx_facts t
  unfold iblk
  rw [View.read_apply]
  show (V m c main_arg5 : S1.Idx → Elt Ideal .f32) _ = _
  refine congrArg (V m c main_arg5 : S1.Idx → Elt Ideal .f32) (funext fun a => Fin.ext ?_)
  match a with
  | ⟨0, _⟩ => show win0_5.index t (0 : Fin 1) * 1 + 1 * 0 = 0; omega

/-! ## What a point writes back, the cover, the array -/

/-- WHAT POINT `t` WRITES BACK is block `t` of `rows`. -/
theorem flushed_eq (c : Dev nD) (t : Fin cfg0.N) :
    (dats m 0 c).flushed 6 t = ((cfg0.win 6).blk t).view.read (Elt Ideal) (rows m c) := by
  show (cfg0.win 6).cut (grid0.coords t) ((dats m 0 c).after 6 t) = _
  rw [after0_6]
  unfold out0_6
  rw [View.canon_unit_zero hz2]
  simp only [View.ld_unit_zero (S := S1024x1024) hz2, View.ld_unit_zero (S := S1x1024) hz2, View.ld_unit_zero (S := S1) hz1]
  funext j
  obtain ⟨p, q, rfl⟩ : ∃ (p q : Fin 1024), j = ix2 p q := ⟨j 0, j 1, eq_ix2 j⟩
  obtain ⟨-, -, -, -, -, -, -, -, -, -, -, b0, b1⟩ := idx_facts t
  have hP : win0_6.index t (0 : Fin 2) * 1024 + p.val < 16384 := by have := p.isLt; omega
  have hQ : win0_6.index t (1 : Fin 2) * 1024 + q.val < 4096 := by have := q.isLt; omega
  rw [View.read_apply]
  have hemb : ((cfg0.win 6).blk t).view.emb (ix2 p q)
      = (ix2 (⟨win0_6.index t (0 : Fin 2) * 1024 + p.val, hP⟩ : Fin 16384)
          (⟨win0_6.index t (1 : Fin 2) * 1024 + q.val, hQ⟩ : Fin 4096) : S16384x4096.Idx) := by
    funext a; apply Fin.ext
    match a with
    | ⟨0, _⟩ => show win0_6.index t (0 : Fin 2) * 1024 + 1 * p.val = win0_6.index t (0 : Fin 2) * 1024 + p.val; omega
    | ⟨1, _⟩ => show win0_6.index t (1 : Fin 2) * 1024 + 1 * q.val = win0_6.index t (1 : Fin 2) * 1024 + q.val; omega
  rw [hemb]
  exact Cert.KernelIdeal.Body.point_eq (iblk m c 0 t) (iblk m c 1 t) (iblk m c 2 t) (iblk m c 3 t) (iblk m c 4 t)
    (iblk m c 5 t) (V m c main_v0 : S16384x1024.Idx → Elt Ideal .f32) (V m c main_v1 : S1x1024.Idx → Elt Ideal .f32)
    (V m c main_v2 : S1x1024.Idx → Elt Ideal .f32) (V m c main_v4 : S1024x4096.Idx → Elt Ideal .bf16)
    (V m c main_v3 : S1x4096.Idx → Elt Ideal .f32) (V m c main_arg5 : S1.Idx → Elt Ideal .f32)
    ⟨win0_6.index t (0 : Fin 2) * 1024 + p.val, hP⟩ ⟨win0_6.index t (1 : Fin 2) * 1024 + q.val, hQ⟩ p q
    (fun k => blk0 m c t p k _ rfl) (fun k => blk1 m c t k) (fun k => blk2 m c t k) (fun k => blk3 m c t k q _ rfl)
    (blk4 m c t q _ rfl) (blk5 m c t)

/-- An index of the result is in point `t`'s block iff each coordinate is in the block's range on its axis. -/
theorem mem_blk (t : Fin cfg0.N) (i : S16384x4096.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v5).slice (win0_6.rect t)).set ↔ _
  rw [View.set_slice_whole, Rect.mem_set_unit]
  exact Iff.rfl

/-- The 64 blocks cover the result: entry (r, n) is in the block of the point with block indices (r / 1024, n / 1024). -/
theorem cover (i : S16384x4096.Idx) :
    ∃ t : Fin cfg0.N, (cfg0.win 6).flush t = true ∧ i ∈ ((cfg0.win 6).blk t).view.set := by
  have hi0 : (i 0).val < 16384 := (i 0).isLt
  have hi1 : (i 1).val < 4096 := (i 1).isLt
  obtain ⟨t, ht⟩ := idx_onto ⟨(i 0).val / 1024, by omega⟩ ⟨(i 1).val / 1024, by omega⟩
  have q0 : win0_6.index t (0 : Fin 2) = (i 0).val / 1024 := congrFun ht 0
  have q1 : win0_6.index t (1 : Fin 2) = (i 1).val / 1024 := congrFun ht 1
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 1024 ≤ (i 1).val ∧ (i 1).val < win0_6.index t (1 : Fin 2) * 1024 + 1024
    omega

/-- THE ARRAY after the region: `rows`. -/
theorem final (c : Dev nD) : (dats m 0 c).arrAt 6 cfg0.N = rows m c :=
  (dats m 0 c).arrAt_eq_of_cover 6 (rows m c) (fun t _ => flushed_eq m c t) (cover)

end Cert.KernelIdeal.Blocks

end
-- ==== Proof.LibBatchBlocks.lean ====
/-
  Layout operations and reductions of rank-3 blocks [a, b, c] read at explicit coordinates: what a kernel meets when it
  treats a block of a batches of b rows as one matrix of a·b rows and takes statistics over the batch axis.

  * merging the two leading axes by a shape cast, [a, b, c] → [a·b, c], and splitting them again: row i·b + r of the
    matrix is row r of batch i;
  * one row [1, 1, c], and one matrix [1, b, c], broadcast over the leading axes;
  * at the ideal values, a sum over the batch axis (axis 0) and over the lane axis (axis 2) as sums over that axis's
    coordinates;
  * at the ideal values, a plain matrix product into a zero accumulator as the sum over the contraction coordinate, for
    any dimension numbers that contract the left operand's columns with the right operand's rows;
  * the small casts [a, 1] → [a] and [a] → [1, 1, a].
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibBatchBlocks

open Idealize.ShloMosaic Idealize.ShloMosaic.ValueIdx

variable {α : Type}

/-- An [a, b, c] array cast to [n, c] (n = a·b) reads, at row p = i·b + r and column k, the operand at (i, r, k). -/
theorem shapeCast_merge01_apply {a b c n : ℕ} (x : (⟨3, ![a, b, c]⟩ : Shape).Idx → α)
    (h : (⟨3, ![a, b, c]⟩ : Shape).ShapeCasts ⟨2, ![n, c]⟩) (p : Fin n) (i : Fin a) (r : Fin b) (k : Fin c)
    (hp : p.val = i.val * b + r.val) : shapeCast ⟨2, ![n, c]⟩ x h (ix2 p k) = x (ix3 i r k) :=
  shapeCast_apply x h _ _ (by
    rw [Shape.rowMajor_val_three, Shape.rowMajor_val_two]
    show (i.val * b + r.val) * c + k.val = p.val * c + k.val
    rw [hp])

/-- An [n, c] array (n = a·b) cast to [a, b, c] reads, at (i, r, k), the operand at row p = i·b + r and column k. -/
theorem shapeCast_split01_apply {a b c n : ℕ} (x : (⟨2, ![n, c]⟩ : Shape).Idx → α)
    (h : (⟨2, ![n, c]⟩ : Shape).ShapeCasts ⟨3, ![a, b, c]⟩) (p : Fin n) (i : Fin a) (r : Fin b) (k : Fin c)
    (hp : p.val = i.val * b + r.val) : shapeCast ⟨3, ![a, b, c]⟩ x h (ix3 i r k) = x (ix2 p k) :=
  shapeCast_apply x h _ _ (by
    rw [Shape.rowMajor_val_three, Shape.rowMajor_val_two]
    show p.val * c + k.val = (i.val * b + r.val) * c + k.val
    rw [hp])

/-- A row [1, 1, c] broadcast to [a, b, c] reads, at (i, r, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (r : Fin b) (k : Fin c) :
    broadcastTo ⟨3, ![a, b, c]⟩ v h (ix3 i r k) = v (ix3 (0 : Fin 1) (0 : Fin 1) k) := by
  refine broadcastTo_apply v h (ix3 i r k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A matrix [1, b, c] broadcast to [a, b, c] reads, at (i, r, k), the matrix at (r, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (r : Fin b) (k : Fin c) :
    broadcastTo ⟨3, ![a, b, c]⟩ v h (ix3 i r k) = v (ix3 (0 : Fin 1) r k) := by
  refine broadcastTo_apply v h (ix3 i r k) (ix3 (0 : Fin 1) r k) fun ax => ?_
  match ax with
  | ⟨0, _⟩ => rfl
  | ⟨1, _⟩ =>
    show r.val = if b = 1 then 0 else r.val
    split
    · have := r.isLt; omega
    · rfl
  | ⟨2, _⟩ =>
    show k.val = if c = 1 then 0 else k.val
    split
    · have := k.isLt; omega
    · rfl

/-- An [a, 1] column cast to the vector [a] reads, at i, the column's entry (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to [1, 1, a] reads, at (u, v, i), the vector's entry i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- At the ideal values the sum of an [a, b, c] block over its batch axis reads, at (r, k), the sum over the batches i of
    the block at (i, r, k). -/
theorem sum_axis0_apply {a b c : ℕ} (src : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (r : Fin b) (k : Fin c) :
    multiReduction .add [0] ⟨2, ![b, c]⟩ src 0x00000000#32 h hφ hacc (ix2 r k) = ∑ i : Fin a, src (ix3 i r k) := by
  refine (Ideal.multiReduction_add_single src _ h hφ hacc (ix2 r k)).trans ?_
  refine Finset.sum_congr rfl fun i _ => ?_
  exact congrArg src (funext fun ax => Fin.ext (by match ax with | ⟨0, _⟩ => rfl | ⟨1, _⟩ => rfl | ⟨2, _⟩ => rfl))

/-- At the ideal values the sum of an [a, b, c] block over its last axis reads, at (i, r), the sum over k of the block at
    (i, r, k). -/
theorem sum_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (r : Fin b) :
    multiReduction .add [2] ⟨2, ![a, b]⟩ src 0x00000000#32 h hφ hacc (ix2 i r) = ∑ k : Fin c, src (ix3 i r k) := by
  refine (Ideal.multiReduction_add_single src _ h hφ hacc (ix2 i r)).trans ?_
  refine Finset.sum_congr rfl fun k _ => ?_
  exact congrArg src (funext fun ax => Fin.ext (by match ax with | ⟨0, _⟩ => rfl | ⟨1, _⟩ => rfl | ⟨2, _⟩ => rfl))

/-- At the ideal values a matrix product [n, K] × [K, F] into the zero accumulator reads, at (p, f), the sum over the
    contraction coordinate k of left (p, k) times right (k, f) — for any dimension numbers with one contracted axis of
    extent K whose operand indices are the rows of the left operand and the columns of the right one (the four
    coordinate facts, which compute on a literal record). -/
theorem matmul_rows_apply {n K F : ℕ} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ .f32) (r : FVec Ideal ⟨2, ![K, F]⟩ .f32)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibBatchBlocks

end
-- ==== Proof.Flatten.lean ====
/-
  Merging the two leading axes does not change the function.

  Row p = 2048·a + r of the [16384, 1024] matrix is row (a, r) of the [8, 2048, 1024] array, and entry (a, r, n) of the
  result split back into [8, 2048, 4096] is entry (p, n) of the [16384, 4096] matrix; a vector written as a one-row
  matrix has the same entries.  So `outRows` of the merged input, split back, is `out` of the input.
-/
import proofs.«127740_j20701742366997_1_alg».proof.Proof.Spec
import proofs.«127740_j20701742366997_1_alg».proof.Proof.LibBatchBlocks
import Idealize.ShloMosaic.Lib.ValueLayout

noncomputable section

open scoped BigOperators

namespace Cert.Adapter

open Idealize.ShloMosaic Idealize.ShloMosaic.ValueIdx

theorem split_outRows (z : (⟨3, ![8, 2048, 1024]⟩ : Shape).Idx → EReal) (γ β : (⟨1, ![1024]⟩ : Shape).Idx → EReal)
    (W : (⟨2, ![1024, 4096]⟩ : Shape).Idx → EReal) (b : (⟨1, ![4096]⟩ : Shape).Idx → EReal)
    (s : (⟨1, ![1]⟩ : Shape).Idx → EReal)
    (hz : (⟨3, ![8, 2048, 1024]⟩ : Shape).ShapeCasts ⟨2, ![16384, 1024]⟩)
    (hv : (⟨1, ![1024]⟩ : Shape).ShapeCasts ⟨2, ![1, 1024]⟩)
    (hb : (⟨1, ![4096]⟩ : Shape).ShapeCasts ⟨2, ![1, 4096]⟩)
    (ho : (⟨2, ![16384, 4096]⟩ : Shape).ShapeCasts ⟨3, ![8, 2048, 4096]⟩) :
    shapeCast ⟨3, ![8, 2048, 4096]⟩
        (outRows (shapeCast ⟨2, ![16384, 1024]⟩ z hz) (shapeCast ⟨2, ![1, 1024]⟩ γ hv) (shapeCast ⟨2, ![1, 1024]⟩ β hv) W
          (shapeCast ⟨2, ![1, 4096]⟩ b hb) s) ho
      = out z γ β W b s := by
  funext i
  obtain ⟨a, r, n, rfl⟩ : ∃ (a : Fin 8) (r : Fin 2048) (n : Fin 4096), i = ix3 a r n := ⟨i 0, i 1, i 2, eq_ix3 i⟩
  have hlt : a.val * 2048 + r.val < 16384 := by have := a.isLt; have := r.isLt; omega
  rw [Cert.LibBatchBlocks.shapeCast_split01_apply _ ho (⟨a.val * 2048 + r.val, hlt⟩ : Fin 16384) a r n rfl,
    outRows_ix2, out_ix3]
  simp only [fun k => Cert.LibBatchBlocks.shapeCast_merge01_apply z hz (⟨a.val * 2048 + r.val, hlt⟩ : Fin 16384) a r k rfl,
    shapeCast_a_1a_apply]

end Cert.Adapter

end
-- ==== Proof.KernelRun.lean ====
/-
  The kernel program's run, with its result named.

  Before the region the host merges the two leading axes of the input, writes γ, β and the bias as one-row matrices and
  changes the weight matrix's float format (the identity on extended reals); after it the host splits the result's
  16384 rows back into [8, 2048].  The region leaves `outRows` of the six arrays it finds, so the program's result is
  `out` of its arguments, because merging rows, computing, and splitting rows back is computing on the rank-3 array.
-/
import proofs.«127740_j20701742366997_1_alg».proof.Proof.Blocks
import proofs.«127740_j20701742366997_1_alg».proof.Proof.Flatten
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Run

open Cert.KernelIdeal Cert.KernelIdeal.Gen Cert.Adapter Idealize.ShloMosaic.ValueIdx

variable (m : (ℓ : Loc nD τ sig) → Buf (Elt Ideal) ℓ) (ρ : Dev nD → PrngReg)

/-! ## The arrays the region finds -/

/-- The input with its two leading axes merged. -/
theorem V_v0 (c : Dev nD) : (V m c main_v0 : S16384x1024.Idx → Elt Ideal .f32)
    = shapeCast S16384x1024 (m ((c : Thread nD τ).loc main_arg0) : S8x2048x1024.Idx → Elt Ideal .f32)
        shapeCasts_S8x2048x1024_S16384x1024 := by
  show StableHlo.after hostOps0 (fun b => m (c, b)) (Proc.devRef .tc main_v0) = _
  after_results
  rfl

/-- γ as a one-row matrix. -/
theorem V_v1 (c : Dev nD) : (V m c main_v1 : S1x1024.Idx → Elt Ideal .f32)
    = shapeCast S1x1024 (m ((c : Thread nD τ).loc main_arg1) : S1024.Idx → Elt Ideal .f32) shapeCasts_S1024_S1x1024 := by
  show StableHlo.after hostOps0 (fun b => m (c, b)) (Proc.devRef .tc main_v1) = _
  after_results
  rfl

/-- β as a one-row matrix. -/
theorem V_v2 (c : Dev nD) : (V m c main_v2 : S1x1024.Idx → Elt Ideal .f32)
    = shapeCast S1x1024 (m ((c : Thread nD τ).loc main_arg2) : S1024.Idx → Elt Ideal .f32) shapeCasts_S1024_S1x1024 := by
  show StableHlo.after hostOps0 (fun b => m (c, b)) (Proc.devRef .tc main_v2) = _
  after_results
  rfl

/-- The bias as a one-row matrix. -/
theorem V_v3 (c : Dev nD) : (V m c main_v3 : S1x4096.Idx → Elt Ideal .f32)
    = shapeCast S1x4096 (m ((c : Thread nD τ).loc main_arg4) : S4096.Idx → Elt Ideal .f32) shapeCasts_S4096_S1x4096 := by
  show StableHlo.after hostOps0 (fun b => m (c, b)) (Proc.devRef .tc main_v3) = _
  after_results
  rfl

/-- The weight matrix in the narrower float format: the same extended reals. -/
theorem V_v4 (c : Dev nD) : (V m c main_v4 : S1024x4096.Idx → Elt Ideal .bf16)
    = (m ((c : Thread nD τ).loc main_arg3) : S1024x4096.Idx → Elt Ideal .f32) := by
  show StableHlo.after hostOps0 (fun b => m (c, b)) (Proc.devRef .tc main_v4) = _
  after_results
  rfl

/-! ## The result -/

/-- The region's result array, as the host operation after it reads it. -/
theorem arr5 (c : Dev nD) :
    Pipeline.withArrays (cfgs 0).spec c (V0 m c) (fun w => (dats m 0 c).arrAt w (cfgs 0).N) (Proc.devRef .tc main_v5)
      = Blocks.rows m c :=
  (Pipeline.withArrays_arr spec0 launch0.win.arr_inj c _ _ 6).trans (Blocks.final m c)

/-- THE PROGRAM'S RESULT is `out` of its arguments. -/
theorem result (c : Dev nD) :
    (Pipeline.afterTail₀ cfgs (dats m) 0 (V0 m) [hostOps1] c main_v6 : S8x2048x4096.Idx → Elt Ideal .f32)
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀
  show StableHlo.after hostOps1 _ (Proc.devRef .tc main_v6) = _
  after_results
  rw [arr5]
  show shapeCast S8x2048x4096 (Blocks.rows m c) shapeCasts_S16384x4096_S8x2048x4096 = _
  unfold Blocks.rows
  rw [V_v0, V_v1, V_v2, V_v3, V_v4, V_main_arg5]
  exact split_outRows _ _ _ _ _ _ _ _ _ _

/-- The run: every weakly fair execution terminates with the result at `out` of the arguments and the arguments
    unchanged. -/
theorem run : θ_run defs (onTc (τ := τ) (main (F := Ideal))) ⟨m, fun _ => 0, ρ⟩ fun r => ∀ c : Dev nD,
      r.2.mem ((c.tc : Thread nD τ).loc main_v6)
        = out (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v6 (Pipeline.mem_restRefs_of main_v6 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.Run

end
-- ==== Proof.RefValue.lean ====
/-
  The reference program computes `Cert.Adapter.out`.

  Its host operations are read one stage at a time at an index (a, r, ·): the mean and the variance of row (a, r) are
  the host's sums from a zero start divided by 1024; the centred row is scaled by the reciprocal square root, by γ and
  shifted by β; the contraction with the weight matrix is a sum over the 1024 features; bias, scale and the squashing
  act entry by entry.  Each broadcast only repeats a coordinate, which the index equations below record.
-/
import proofs.«127740_j20701742366997_1_alg».proof.Proof.Gen.ReferenceIdeal.Read
import proofs.«127740_j20701742366997_1_alg».proof.Proof.Spec

noncomputable section

open scoped BigOperators

namespace Cert.ReferenceIdeal.RefValue

open Cert.ReferenceIdeal Cert.ReferenceIdeal.Read Cert.Adapter Idealize.ShloMosaic Idealize.ShloMosaic.ValueIdx

/-! ## The broadcasts' and reductions' index maps at coordinates -/

theorem e_v0 (a : Fin 8) (r : Fin 2048) (k : Fin 1024) : idx_main_v0 (ix2 a r) k = ix3 a r k :=
  funext fun ax => Fin.ext (by match ax with | ⟨0, _⟩ => rfl | ⟨1, _⟩ => rfl | ⟨2, _⟩ => rfl)
theorem e_v1 (a : Fin 8) (r : Fin 2048) (u : Fin 1) : idx_main_v1 (ix3 a r u) = ix2 a r :=
  funext fun ax => Fin.ext (by match ax with | ⟨0, _⟩ => rfl | ⟨1, _⟩ => rfl)
theorem e_v4 (a : Fin 8) (r : Fin 2048) (k : Fin 1024) : idx_main_v4 (ix3 a r k) = ix3 a r (0 : Fin 1) :=
  funext fun ax => Fin.ext (by match ax with | ⟨0, _⟩ => rfl | ⟨1, _⟩ => rfl | ⟨2, _⟩ => rfl)
theorem e_v7 (a : Fin 8) (r : Fin 2048) (k : Fin 1024) : idx_main_v7 (ix2 a r) k = ix3 a r k :=
  funext fun ax => Fin.ext (by match ax with | ⟨0, _⟩ => rfl | ⟨1, _⟩ => rfl | ⟨2, _⟩ => rfl)
theorem e_v8 (a : Fin 8) (r : Fin 2048) (u : Fin 1) : idx_main_v8 (ix3 a r u) = ix2 a r :=
  funext fun ax => Fin.ext (by match ax with | ⟨0, _⟩ => rfl | ⟨1, _⟩ => rfl)
theorem e_v11 (a : Fin 8) (r : Fin 2048) (k : Fin 1024) : idx_main_v11 (ix3 a r k) = ix3 a r (0 : Fin 1) :=
  funext fun ax => Fin.ext (by match ax with | ⟨0, _⟩ => rfl | ⟨1, _⟩ => rfl | ⟨2, _⟩ => rfl)
theorem e_v16 (a : Fin 8) (r : Fin 2048) (k : Fin 1024) : idx_main_v16 (ix3 a r k) = ix3 a r (0 : Fin 1) :=
  funext fun ax => Fin.ext (by match ax with | ⟨0, _⟩ => rfl | ⟨1, _⟩ => rfl | ⟨2, _⟩ => rfl)
theorem e_v19 (a : Fin 8) (r : Fin 2048) (k : Fin 1024) : idx_main_v18 (idx_main_v19 (ix3 a r k)) = ix1 k :=
  funext fun ax => Fin.ext (by match ax with | ⟨0, _⟩ => rfl)
theorem e_v22 (a : Fin 8) (r : Fin 2048) (k : Fin 1024) : idx_main_v21 (idx_main_v22 (ix3 a r k)) = ix1 k :=
  funext fun ax => Fin.ext (by match ax with | ⟨0, _⟩ => rfl)
theorem e_l24 (a : Fin 8) (r : Fin 2048) (n : Fin 4096) (k : Fin 1024) : lidx_main_v24 (ix3 a r n) k = ix3 a r k :=
  funext fun ax => Fin.ext (by match ax with | ⟨0, _⟩ => rfl | ⟨1, _⟩ => rfl | ⟨2, _⟩ => rfl)
theorem e_r24 (a : Fin 8) (r : Fin 2048) (n : Fin 4096) (k : Fin 1024) : ridx_main_v24 (ix3 a r n) k = ix2 k n :=
  funext fun ax => Fin.ext (by match ax with | ⟨0, _⟩ => rfl | ⟨1, _⟩ => rfl)
theorem e_v26 (a : Fin 8) (r : Fin 2048) (n : Fin 4096) : idx_main_v25 (idx_main_v26 (ix3 a r n)) = ix1 n :=
  funext fun ax => Fin.ext (by match ax with | ⟨0, _⟩ => rfl)
theorem e_v29 (a : Fin 8) (r : Fin 2048) (n : Fin 4096) : idx_main_v28 (idx_main_v29 (ix3 a r n)) = ix1 (0 : Fin 1) :=
  funext fun ax => Fin.ext (by match ax with | ⟨0, _⟩ => rfl)

/-! ## The stages at coordinates -/

variable (x0 : (⟨S8x2048x1024, .f32⟩ : BufTy).Contents (Elt Ideal))

/-- The mean column at row (a, r). -/
theorem mean_eq (a : Fin 8) (r : Fin 2048) (u : Fin 1) :
    val_main_v3 (F := Ideal) x0 (ix3 a r u) = mean (fun k => x0 (ix3 a r k)) := by
  rw [val_main_v3_apply, val_main_v1_apply, e_v1, val_main_v0_apply, val_main_v2_apply, val_main_cst_0_apply,
    val_main_cst_apply]
  simp only [e_v0, Ideal.hostDivf_def, Ideal.ofBits_def, Ideal.ofBits_zero_f32, zero_add]
  rfl

/-- The centred row, as the variance reads it. -/
theorem centred_eq (a : Fin 8) (r : Fin 2048) (k : Fin 1024) :
    val_main_v5 (F := Ideal) x0 (ix3 a r k) = x0 (ix3 a r k) - mean (fun k => x0 (ix3 a r k)) := by
  rw [val_main_v5_apply, val_main_v4_apply, e_v4, mean_eq]
  rfl

/-- The variance column at row (a, r). -/
theorem variance_eq (a : Fin 8) (r : Fin 2048) (u : Fin 1) :
    val_main_v10 (F := Ideal) x0 (ix3 a r u) = variance (fun k => x0 (ix3 a r k)) := by
  rw [val_main_v10_apply, val_main_v8_apply, e_v8, val_main_v7_apply, val_main_v9_apply, val_main_cst_2_apply,
    val_main_cst_1_apply]
  simp only [e_v7, val_main_v6_apply, centred_eq, Ideal.hostDivf_def, Ideal.mulf_def, Ideal.ofBits_def,
    Ideal.ofBits_zero_f32, zero_add]
  rfl

/-- The centred row, as the scaling reads it. -/
theorem centred_eq' (a : Fin 8) (r : Fin 2048) (k : Fin 1024) :
    val_main_v12 (F := Ideal) x0 (ix3 a r k) = x0 (ix3 a r k) - mean (fun k => x0 (ix3 a r k)) := by
  rw [val_main_v12_apply, val_main_v11_apply, e_v11, mean_eq]
  rfl

/-- The reciprocal square root of the variance plus the small constant, spread along the row. -/
theorem rsqrt_eq (a : Fin 8) (r : Fin 2048) (k : Fin 1024) :
    val_main_v16 (F := Ideal) x0 (ix3 a r k) = Ideal.rsqrt (variance (fun k => x0 (ix3 a r k)) + eps) := by
  rw [val_main_v16_apply, e_v16, val_main_v15_apply, val_main_v14_apply, variance_eq, val_main_v13_apply,
    val_main_cst_3_apply]
  rfl

variable (x1 x2 : (⟨S1024, .f32⟩ : BufTy).Contents (Elt Ideal))

/-- The normalised row. -/
theorem normed_eq (a : Fin 8) (r : Fin 2048) (k : Fin 1024) :
    val_main_v23 (F := Ideal) x0 x1 x2 (ix3 a r k)
      = normed (fun k => x0 (ix3 a r k)) (fun k => x1 (ix1 k)) (fun k => x2 (ix1 k)) k := by
  rw [val_main_v23_apply, val_main_v20_apply, val_main_v17_apply, centred_eq', rsqrt_eq, val_main_v19_apply,
    val_main_v18_apply, e_v19, val_main_v22_apply, val_main_v21_apply, e_v22]
  rfl

variable (x3 : (⟨S1024x4096, .f32⟩ : BufTy).Contents (Elt Ideal)) (x4 : (⟨S4096, .f32⟩ : BufTy).Contents (Elt Ideal))
  (x5 : (⟨S1, .f32⟩ : BufTy).Contents (Elt Ideal))

/-- The result at (a, r, n). -/
theorem result_apply (a : Fin 8) (r : Fin 2048) (n : Fin 4096) :
    val_main_v35 (F := Ideal) x0 x1 x2 x3 x4 x5 (ix3 a r n)
      = entry (fun k => x0 (ix3 a r k)) (fun k => x1 (ix1 k)) (fun k => x2 (ix1 k)) (fun k => x3 (ix2 k n))
          (x4 (ix1 n)) (x5 (ix1 (0 : Fin 1))) := by
  rw [val_main_v35_apply, val_main_v33_apply, val_main_v32_apply, val_main_v30_apply, val_main_v27_apply,
    val_main_v24_apply, val_main_v26_apply, val_main_v25_apply, e_v26, val_main_v29_apply, val_main_v28_apply, e_v29,
    val_main_v31_apply, val_main_cst_4_apply, val_main_v34_apply, val_main_cst_5_apply]
  simp only [e_l24, e_r24, normed_eq]
  rfl

/-- The reference's last stage is `out` of its arguments. -/
theorem result_eq : val_main_v35 (F := Ideal) x0 x1 x2 x3 x4 x5 = out x0 x1 x2 x3 x4 x5 := by
  funext i
  obtain ⟨a, r, n, rfl⟩ : ∃ (a : Fin 8) (r : Fin 2048) (n : Fin 4096), i = ix3 a r n := ⟨i 0, i 1, i 2, eq_ix3 i⟩
  rw [result_apply, out_ix3]

end Cert.ReferenceIdeal.RefValue

end
-- ==== Proof.lean ====
/-
  A layer normalisation followed by a linear layer, a scalar scale and a tanh clamp: a tiled kernel against its plain
  reference, equal on the extended reals.

  Both programs compute, for every row z of 1024 features of an [8, 2048, 1024] input and every output feature n,

      tanh ( ((Σ_k zn_k · W(k, n)) + b_n) · s / 3 ) · 3,    zn_k = (z_k − m) · rsqrt(v + ε) · γ_k + β_k,

  with m = (Σ z)/1024 the row's mean and v = (Σ (z − m)²)/1024 its variance (`Cert.Adapter.out`, Proof/Spec.lean).
  The constants 1024, ε and 3 are the same single-precision words in both programs, and every sum starts from the zero
  word, so nothing is evaluated and no algebraic law beyond re-indexing is used: the precondition is never opened.

  The kernel merges the input's two leading axes into 16384 rows, rounds the weights to a narrower float format (the
  identity on extended reals), and runs a 16 × 4 grid: point (i, j) normalises rows 1024·i … 1024·i + 1023, contracts
  them with columns 1024·j … 1024·j + 1023 of the weights over all 1024 features at once, and writes block (i, j) of a
  [16384, 4096] result, which the host splits back into [8, 2048, 4096].  Proof/Payload.lean reads the body's store
  entry by entry, Proof/Blocks.lean places each block in its array and covers the result with the 64 blocks,
  Proof/Flatten.lean shows that merging rows, computing and splitting them back is computing on the rank-3 array, and
  Proof/KernelRun.lean reads the host operations before and after the region and states the run.  The reference's run
  and its operations read at an index are generated modules; Proof/RefValue.lean shows that its last stage is `out`.

  The three frames are the generated frame proofs (the reference's is its generated run with the result dropped); the
  kernel's idealization rewrote nothing, so that conjunct is `True`.
-/
import proofs.«127740_j20701742366997_1_alg».proof.Defs
import proofs.«127740_j20701742366997_1_alg».proof.Proof.Gen.Kernel
import proofs.«127740_j20701742366997_1_alg».proof.Proof.Gen.Kernel.Skeleton
import proofs.«127740_j20701742366997_1_alg».proof.Proof.Gen.Kernel.Launch
import proofs.«127740_j20701742366997_1_alg».proof.Proof.Gen.Kernel.Points
import proofs.«127740_j20701742366997_1_alg».proof.Proof.Gen.Kernel.Frame
import proofs.«127740_j20701742366997_1_alg».proof.Proof.Gen.KernelIdeal
import proofs.«127740_j20701742366997_1_alg».proof.Proof.Gen.KernelIdeal.Skeleton
import proofs.«127740_j20701742366997_1_alg».proof.Proof.Gen.KernelIdeal.Launch
import proofs.«127740_j20701742366997_1_alg».proof.Proof.Gen.KernelIdeal.Points
import proofs.«127740_j20701742366997_1_alg».proof.Proof.Gen.KernelIdeal.Frame
import proofs.«127740_j20701742366997_1_alg».proof.Proof.Gen.ReferenceIdeal
import proofs.«127740_j20701742366997_1_alg».proof.Proof.Gen.ReferenceIdeal.Run
import proofs.«127740_j20701742366997_1_alg».proof.Proof.Gen.ReferenceIdeal.Read
import proofs.«127740_j20701742366997_1_alg».proof.Proof.Gen.Pre_finite_inputs
import proofs.«127740_j20701742366997_1_alg».proof.Proof.KernelRun
import proofs.«127740_j20701742366997_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with `out` of the arguments: the kernel by its run
    read through its blocks, the reference by its generated run, whose last stage is `out`. -/
theorem algebraic : Cert.algebraic_KernelIdeal_ReferenceIdeal := by
  intro m ρ m' ρ' _ hagree
  refine ⟨fun c => Cert.Adapter.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
